-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x128x128 : Shape := ⟨3, ![2, 128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_

variable [Facts]

def fn {F : FTy → Type} [FloatOps F] (main_arg0 : FVec F S100000x128 .f32) (main_arg1 : FVec F S2x128x128 .f32) (main_arg2 : FVec F S2x128x128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128x128 .f32 := Host.absf main_arg1
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  main_v13
-- ==== Kernel.lean ====
abbrev S100000x128 : Shape := ⟨2, ![100000, 128]⟩
abbrev S2x128x128 : Shape := ⟨3, ![2, 128, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S4000x128 : Shape := ⟨2, ![4000, 128]⟩
abbrev S1x128x128 : Shape := ⟨3, ![1, 128, 128]⟩
abbrev S128x128 : Shape := ⟨2, ![128, 128]⟩

abbrev nBuf : Space → Nat
  | .hbm => 57
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x128x128, .f32⟩
  | .hbm, ⟨2, _⟩ => ⟨S2x128x128, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S_, .f32⟩
  | .hbm, ⟨45, _⟩ => ⟨S1600000, .f32⟩
  | .hbm, ⟨46, _⟩ => ⟨S_, .f32⟩
  | .hbm, ⟨47, _⟩ => ⟨S100000, .f32⟩
  | .hbm, ⟨48, _⟩ => ⟨S1600000x1, .i32⟩
  | .hbm, ⟨49, _⟩ => ⟨S100000, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S2x128x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S2x128x128, .f32⟩
  | .local _ .vmem, ⟨12, _⟩ => ⟨S4000x128, .f32⟩
  | .local _ .vmem, ⟨13, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S2x128x128_S2x128x128_0_0_0 : ∀ a, (![0, 0, 0] : Fin 3 → Nat) a + S2x128x128.size a ≤ S2x128x128.size a
  h_S2x128x128 : 0 < S2x128x128.numel
  slices_S2x128x128_o0_0_0_S1x128x128 : S2x128x128.Slices ![0, 0, 0] S1x128x128
  shapeCasts_S1x128x128_S128x128 : S1x128x128.ShapeCasts S128x128
  slices_S2x128x128_o1_0_0_S1x128x128 : S2x128x128.Slices ![1, 0, 0] S1x128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128x128.size a ≤ S2x128x128.size a
  hwx0_2 : ∀ i : grid0.Coords, EltTy.bits .f32 = 32 ∨ (Rect.block (s := S2x128x128) S2x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128x128.size a ≤ S2x128x128.size a
  hwx1_2 : ∀ i : grid1.Coords, EltTy.bits .f32 = 32 ∨ (Rect.block (s := S2x128x128) S2x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x128x128 : Shape := ⟨3, ![2, 128, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128x128 : Shape := ⟨3, ![1, 128, 128]⟩
abbrev S128x128 : Shape := ⟨2, ![128, 128]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x128x128, .f32⟩
  | .hbm, ⟨2, _⟩ => ⟨S2x128x128, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S1x128x128, .f32⟩
  | .hbm, ⟨31, _⟩ => ⟨S128x128, .f32⟩
  | .hbm, ⟨32, _⟩ => ⟨S100000x128, .f32⟩
  | .hbm, ⟨33, _⟩ => ⟨S1x128x128, .f32⟩
  | .hbm, ⟨34, _⟩ => ⟨S128x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128x128, .f32⟩
  | .hbm, ⟨66, _⟩ => ⟨S128x128, .f32⟩
  | .hbm, ⟨67, _⟩ => ⟨S100000x128, .f32⟩
  | .hbm, ⟨68, _⟩ => ⟨S1x128x128, .f32⟩
  | .hbm, ⟨69, _⟩ => ⟨S128x128, .f32⟩
  | .hbm, ⟨70, _⟩ => ⟨S100000x128, .f32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibStackPlane.lean ====
/-
  One matrix of a stack, read at an index, over arbitrary sizes.

  A stack `[G, a, b]` of `G` matrices; matrix number `g` is taken out as the slab `[g : g+1, 0 : a, 0 : b]` of shape
  `[1, a, b]` and the unit axis is then dropped, giving an `[a, b]` matrix. Its entry `(i, j)` is the stack's entry
  `(g, i, j)`: the slab keeps the two trailing coordinates and shifts the leading one by `g`, and dropping a leading
  unit axis does not move the row-major position `i · b + j`.
-/
import Idealize.ShloMosaic.Lib.Pipeline.Value
import Idealize.ShloMosaic.Lib.ValueIdx

noncomputable section

namespace Cert.StackPlane

open Idealize.ShloMosaic Idealize.ShloMosaic.ValueIdx

variable {α : Type} {G a b : Nat}

/-- Matrix `g` of a stack of `G` matrices `[a, b]`, sliced out and reshaped to `[a, b]`, at `(i, j)`. -/
theorem plane_apply (g : Nat) (hg : g < G) (X : (⟨3, ![G, a, b]⟩ : Shape).Idx → α)
    (hs : (⟨3, ![G, a, b]⟩ : Shape).Slices ![g, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![g, 0, 0] X hs) hc (ix2 i j)
      = X (ix3 (⟨g, hg⟩ : Fin G) i j) := by
  refine (shapeCast_apply _ hc (ix2 i j) (ix3 (0 : Fin 1) i j) ?_).trans ?_
  · rw [Shape.rowMajor_val_three, Shape.rowMajor_val_two]
    show (0 * a + i.val) * b + j.val = i.val * b + j.val
    rw [Nat.zero_mul, Nat.zero_add]
  · refine extractStridedSlice_apply _ X hs (ix3 (0 : Fin 1) i j) (ix3 (⟨g, hg⟩ : Fin G) i j) ?_
    intro ax
    match ax with
    | ⟨0, _⟩ => show g = g + 0; omega
    | ⟨1, _⟩ => show i.val = 0 + i.val; omega
    | ⟨2, _⟩ => show j.val = 0 + j.val; omega

end Cert.StackPlane

end
-- ==== Proof.KernelPayload.lean ====
/-
  What one grid point of either kernel stores, read at an index of the block.

  The body loads a block of 4000 rows of the features `x0`, the same rows of the neighbour means `x1`, and the whole
  pair of weight matrices `x2`, and stores `x0 · W₀ + x1 · W₁` (the first kernel: its rectifier `max(·, 0)` of that).
  Over the extended reals rounding to bf16 is the identity and a product accumulated into zero is the plain
  contraction, so entry `(p, q)` of the stored block is
  `∑ₖ x0(p, k) · x2(0, k, q) + ∑ₖ x1(p, k) · x2(1, k, q)`.
-/
import proofs.«178171_j40973988004535_1_alg».proof.Proof.Gen.KernelIdeal.Skeleton
import proofs.«178171_j40973988004535_1_alg».proof.Proof.LibPlainProduct
import proofs.«178171_j40973988004535_1_alg».proof.Proof.LibStackPlane
import Idealize.ShloMosaic.PureOps.Ideal.Laws

noncomputable section

namespace Cert.Sage.KernelSide

open Idealize.ShloMosaic Idealize.ShloMosaic.ValueIdx Cert.KernelIdeal Cert.KernelIdeal.Gen

/-- Entry `(p, q)` of `x0 · W₀ + x1 · W₁` for one block of rows. -/
def blockAt (x0 x1 : Vec Ideal S4000x128 .f32) (x2 : Vec Ideal S2x128x128 .f32) (p : Fin 4000) (q : Fin 128) : EReal :=
  (∑ k : Fin 128, x0 (ix2 p k) * x2 (ix3 (0 : Fin 2) k q)) + ∑ k : Fin 128, x1 (ix2 p k) * x2 (ix3 (1 : Fin 2) k q)

/-- A block of rows times weight matrix number `g` of the pair, as the kernels spell it (both operands rounded to
    bf16, accumulated into zero), at `(p, q)`: the contraction over the 128 features. -/
theorem matmul_plane (A : FVec Ideal S4000x128 .f32) (W : Vec Ideal S2x128x128 .f32) (g : Nat) (hg : g < 2)
    (hs : S2x128x128.Slices ![g, 0, 0] S1x128x128) (p : Fin 4000) (q : Fin 128) :
    matmul dot_S4000x128_S128x128_S4000x128_1_0_0_1_n_n none (truncf .bf16 A bitsLt_bf16_f32)
        (truncf .bf16 (shapeCast S128x128 (extractStridedSlice S1x128x128 ![g, 0, 0] W hs) shapeCasts_S1x128x128_S128x128)
          bitsLt_bf16_f32)
        (constant S4000x128 .f32 0x00000000#32) (ix2 p q)
      = ∑ k : Fin 128, A (ix2 p k) * W (ix3 (⟨g, hg⟩ : Fin 2) k q) := by
  refine (Cert.PlainProduct.matmul_plain_apply _ rfl none _ _ p q).trans ?_
  refine Finset.sum_congr rfl fun k _ => ?_
  show A (ix2 p k) * shapeCast S128x128 (extractStridedSlice S1x128x128 ![g, 0, 0] W hs) shapeCasts_S1x128x128_S128x128 (ix2 k q) = _
  rw [Cert.StackPlane.plane_apply g hg W hs shapeCasts_S1x128x128_S128x128 k q]

/-- The second kernel's stored block at `(p, q)`. -/
theorem pay1_apply (x0 x1 : Vec Ideal S4000x128 .f32) (x2 : Vec Ideal S2x128x128 .f32) (p : Fin 4000) (q : Fin 128) :
    k1_pay1 (F := Ideal) x0 x1 x2 (ix2 p q) = blockAt x0 x1 x2 p q := by
  unfold k1_pay1 blockAt
  simp only [shapeCast_self]
  exact congrArg₂ (· + ·) (matmul_plane x0 x2 0 (by decide) _ p q) (matmul_plane x1 x2 1 (by decide) _ p q)

/-- The first kernel's stored block at `(p, q)`: the same, rectified. -/
theorem pay0_apply (x0 x1 : Vec Ideal S4000x128 .f32) (x2 : Vec Ideal S2x128x128 .f32) (p : Fin 4000) (q : Fin 128) :
    k0_pay1 (F := Ideal) x0 x1 x2 (ix2 p q) = max (blockAt x0 x1 x2 p q) 0 := by
  unfold k0_pay1 blockAt
  simp only [shapeCast_self]
  show max _ (Ideal.ofBits .f32 0x00000000#32) = _
  rw [Ideal.ofBits_zero_f32]
  exact congrArg (max · 0) (congrArg₂ (· + ·) (matmul_plane x0 x2 0 (by decide) _ p q) (matmul_plane x1 x2 1 (by decide) _ p q))

end Cert.Sage.KernelSide

end
-- ==== Proof.Spec.lean ====
/-
  The mathematics of one GraphSAGE layer on 100000 nodes with 128 features, as a function of arrays read at an index.

  A layer takes the node features `a`, the neighbour means `n` (both `[100000, 128]`) and a pair of weight matrices
  `W` (`[2, 128, 128]`) and returns `a · W₀ + n · W₁`: entry `(p, q)` is
  `∑ₖ a(p, k) · W(0, k, q) + ∑ₖ n(p, k) · W(1, k, q)` over the extended reals. The first layer is followed by the
  rectifier `max(·, 0)`.
-/
import Idealize.ShloMosaic.PureOps.Ideal
import Idealize.ShloMosaic.Lib.ValueIdx

noncomputable section

namespace Cert.Sage

open Idealize.ShloMosaic Idealize.ShloMosaic.ValueIdx

/-- The node-feature arrays `[100000, 128]`. -/
abbrev SN : Shape := ⟨2, ![100000, 128]⟩
/-- A pair of weight matrices `[2, 128, 128]`. -/
abbrev SW : Shape := ⟨3, ![2, 128, 128]⟩

/-- Entry `(p, q)` of `a · W₀ + n · W₁`. -/
def layerAt (a n : SN.Idx → EReal) (W : SW.Idx → EReal) (p : Fin 100000) (q : Fin 128) : EReal :=
  (∑ k : Fin 128, a (ix2 p k) * W (ix3 (0 : Fin 2) k q)) + ∑ k : Fin 128, n (ix2 p k) * W (ix3 (1 : Fin 2) k q)

/-- The layer `a · W₀ + n · W₁` as an array. -/
def layer (a n : SN.Idx → EReal) (W : SW.Idx → EReal) : SN.Idx → EReal :=
  fun i => layerAt a n W (i 0) (i 1)

/-- The rectifier, entry by entry. -/
def relu (h : SN.Idx → EReal) : SN.Idx → EReal := fun i => max (h i) 0

theorem layer_ix2 (a n : SN.Idx → EReal) (W : SW.Idx → EReal) (p : Fin 100000) (q : Fin 128) :
    layer a n W (ix2 p q) = layerAt a n W p q := rfl

end Cert.Sage

end
-- ==== Proof.KernelBlocks.lean ====
/-
  From blocks to arrays: what each of the two kernel regions leaves in its result array.

  Each region runs 25 grid points; point `t` reads rows `4000 t … 4000 t + 3999` of its two row operands and the whole
  pair of weight matrices, and writes the same rows of the result. Entry `(p, q)` of the written block is the layer
  `∑ₖ a(4000 t + p, k) · W(0, k, q) + ∑ₖ n(4000 t + p, k) · W(1, k, q)` (rectified in the first region), which depends
  on the block only through the array's own row `4000 t + p`: every block is a restriction of one whole-array function,
  and the 25 blocks tile the 100000 rows, so the array ends holding that function. All of it is stated for arbitrary
  contents `V` of the buffers at the region's entry.
-/
import proofs.«178171_j40973988004535_1_alg».proof.Proof.Gen.KernelIdeal.Frame
import proofs.«178171_j40973988004535_1_alg».proof.Proof.KernelPayload
import proofs.«178171_j40973988004535_1_alg».proof.Proof.Spec
import Idealize.ShloMosaic.Lib.Pipeline.Value

set_option maxRecDepth 16384

noncomputable section

namespace Cert.Sage.KernelSide

open Idealize.ShloMosaic Idealize.ShloMosaic.TcCoe Idealize.ShloMosaic.ValueIdx Idealize.SL.Sem
open Cert.KernelIdeal Cert.KernelIdeal.Gen Cert.Sage
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## Region 0: the first layer, rectified -/

/-- The printed index maps of region 0, decided over its 25 grid points: the row windows sit at block `t`, the weight
    window at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

theorem point_lt0 (t : Fin cfg0.N) : t.val < 25 := lt_of_lt_of_eq t.isLt N_0

/-- Row `p` of the feature block at point `t` is row `4000 t + p` of the array. -/
theorem read0_0 (c : Dev nD) (t : Fin cfg0.N) (p : Fin 4000) (k : Fin 128) (P : Fin 100000) (hP : P.val = t.val * 4000 + p.val) :
    iblk0 V c 0 t (ix2 p k) = V c main_arg0 (ix2 P k) := by
  show V c main_arg0 (((cfg0.win 0).blk t).view.emb (ix2 p k)) = V c main_arg0 (ix2 P k)
  refine congrArg _ (funext fun a => Fin.ext ?_)
  obtain ⟨e0, e1, -⟩ := idx_facts0 t
  match a with
  | ⟨0, _⟩ => show win0_0.index t (0 : Fin 2) * 4000 + 1 * p.val = P.val; omega
  | ⟨1, _⟩ => show win0_0.index t (1 : Fin 2) * 128 + 1 * k.val = k.val; omega

/-- The same for the neighbour means. -/
theorem read0_1 (c : Dev nD) (t : Fin cfg0.N) (p : Fin 4000) (k : Fin 128) (P : Fin 100000) (hP : P.val = t.val * 4000 + p.val) :
    iblk0 V c 1 t (ix2 p k) = V c main_v18 (ix2 P k) := by
  show V c main_v18 (((cfg0.win 1).blk t).view.emb (ix2 p k)) = V c main_v18 (ix2 P k)
  refine congrArg _ (funext fun a => Fin.ext ?_)
  obtain ⟨-, -, e2, e3, -⟩ := idx_facts0 t
  match a with
  | ⟨0, _⟩ => show win0_1.index t (0 : Fin 2) * 4000 + 1 * p.val = P.val; omega
  | ⟨1, _⟩ => show win0_1.index t (1 : Fin 2) * 128 + 1 * k.val = k.val; omega

/-- The weight window's block is the whole pair of matrices, at every point. -/
theorem read0_2 (c : Dev nD) (t : Fin cfg0.N) (g : Fin 2) (k q : Fin 128) :
    iblk0 V c 2 t (ix3 g k q) = V c main_arg1 (ix3 g k q) := by
  show V c main_arg1 (((cfg0.win 2).blk t).view.emb (ix3 g k q)) = V c main_arg1 (ix3 g k q)
  refine congrArg _ (funext fun a => Fin.ext ?_)
  obtain ⟨-, -, -, -, e4, e5, e6, -⟩ := idx_facts0 t
  match a with
  | ⟨0, _⟩ => show win0_2.index t (0 : Fin 3) * 2 + 1 * g.val = g.val; omega
  | ⟨1, _⟩ => show win0_2.index t (1 : Fin 3) * 128 + 1 * k.val = k.val; omega
  | ⟨2, _⟩ => show win0_2.index t (2 : Fin 3) * 128 + 1 * q.val = q.val; omega

/-- What point `t` writes back is block `t` of the layer of the arrays the region finds. -/
theorem flushed0_eq (c : Dev nD) (t : Fin cfg0.N) :
    (dat0 V c).flushed 3 t
      = ((cfg0.win 3).blk t).view.read (Elt Ideal) (relu (layer (V c main_arg0) (V c main_v18) (V c main_arg1))) := by
  show (cfg0.win 3).cut (grid0.coords t) ((dat0 V c).after 3 t) = _
  rw [after0_3]
  unfold out0_3
  rw [View.canon_unit_zero hz2]
  simp only [View.ld_unit_zero (S := S4000x128) hz2, View.ld_unit_zero (S := S2x128x128) hz3]
  funext j
  obtain ⟨p, q, rfl⟩ : ∃ (p : Fin 4000) (q : Fin 128), j = ix2 p q := ⟨j 0, j 1, eq_ix2 j⟩
  have ht := point_lt0 t
  have hp : p.val < 4000 := p.isLt
  obtain ⟨-, -, -, -, -, -, -, e7, e8⟩ := idx_facts0 t
  have hemb : ((cfg0.win 3).blk t).view.emb (ix2 p q) = ix2 (⟨t.val * 4000 + p.val, by omega⟩ : Fin 100000) q := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * q.val = q.val; omega
  refine (pay0_apply (iblk0 V c 0 t) (iblk0 V c 1 t) (iblk0 V c 2 t) p q).trans ?_
  show _ = (relu (layer (V c main_arg0) (V c main_v18) (V c main_arg1))) (((cfg0.win 3).blk t).view.emb (ix2 p q))
  rw [hemb]
  unfold blockAt
  simp only [read0_0 V c t p _ ⟨t.val * 4000 + p.val, by omega⟩ rfl, read0_1 V c t p _ ⟨t.val * 4000 + p.val, by omega⟩ rfl, read0_2 V c t]
  rfl

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v19).slice (win0_3.rect t)).set ↔ _
  rw [View.set_slice_whole, Rect.mem_set_unit]
  exact Iff.rfl

/-- Row `r` of the array is written by point `r / 4000`: the 25 blocks of 4000 rows tile the 100000 rows. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 4000 < cfg0.N := by show (i 0).val / 4000 < grid0.N; rw [N_0]; omega
  refine ⟨⟨(i 0).val / 4000, hN⟩, flush0_3 _, ?_⟩
  rw [mem_blk0]
  obtain ⟨-, -, -, -, -, -, -, e7, e8⟩ := idx_facts0 ⟨(i 0).val / 4000, hN⟩
  have e7' : win0_3.index ⟨(i 0).val / 4000, hN⟩ (0 : Fin 2) = (i 0).val / 4000 := e7
  intro a
  match a with
  | ⟨0, _⟩ => show win0_3.index ⟨(i 0).val / 4000, hN⟩ (0 : Fin 2) * 4000 ≤ (i 0).val ∧ (i 0).val < win0_3.index ⟨(i 0).val / 4000, hN⟩ (0 : Fin 2) * 4000 + 4000; omega
  | ⟨1, _⟩ => show win0_3.index ⟨(i 0).val / 4000, hN⟩ (1 : Fin 2) * 128 ≤ (i 1).val ∧ (i 1).val < win0_3.index ⟨(i 0).val / 4000, hN⟩ (1 : Fin 2) * 128 + 128; omega

/-- The result array of region 0 after its 25 points: the layer of the arrays the region found. -/
theorem final0 (c : Dev nD) :
    (dat0 V c).arrAt 3 cfg0.N = relu (layer (V c main_arg0) (V c main_v18) (V c main_arg1)) :=
  (dat0 V c).arrAt_eq_of_cover 3 _ (fun t _ => flushed0_eq V c t) cover0

/-! ## Region 1: the second layer -/

/-- The printed index maps of region 1, decided over its 25 grid points: the row windows sit at block `t`, the weight
    window at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = 0 ∧ win1_2.index t (1 : Fin 3) = 0 ∧ win1_2.index t (2 : Fin 3) = 0
    ∧ win1_3.index t (0 : Fin 2) = t.val ∧ win1_3.index t (1 : Fin 2) = 0 :=
  (by decide +kernel : ∀ t : Fin grid1.N, _)

theorem point_lt1 (t : Fin cfg1.N) : t.val < 25 := lt_of_lt_of_eq t.isLt N_1

/-- Row `p` of the feature block at point `t` is row `4000 t + p` of the array. -/
theorem read1_0 (c : Dev nD) (t : Fin cfg1.N) (p : Fin 4000) (k : Fin 128) (P : Fin 100000) (hP : P.val = t.val * 4000 + p.val) :
    iblk1 V c 0 t (ix2 p k) = V c main_v19 (ix2 P k) := by
  show V c main_v19 (((cfg1.win 0).blk t).view.emb (ix2 p k)) = V c main_v19 (ix2 P k)
  refine congrArg _ (funext fun a => Fin.ext ?_)
  obtain ⟨e0, e1, -⟩ := idx_facts1 t
  match a with
  | ⟨0, _⟩ => show win1_0.index t (0 : Fin 2) * 4000 + 1 * p.val = P.val; omega
  | ⟨1, _⟩ => show win1_0.index t (1 : Fin 2) * 128 + 1 * k.val = k.val; omega

/-- The same for the neighbour means. -/
theorem read1_1 (c : Dev nD) (t : Fin cfg1.N) (p : Fin 4000) (k : Fin 128) (P : Fin 100000) (hP : P.val = t.val * 4000 + p.val) :
    iblk1 V c 1 t (ix2 p k) = V c main_v38 (ix2 P k) := by
  show V c main_v38 (((cfg1.win 1).blk t).view.emb (ix2 p k)) = V c main_v38 (ix2 P k)
  refine congrArg _ (funext fun a => Fin.ext ?_)
  obtain ⟨-, -, e2, e3, -⟩ := idx_facts1 t
  match a with
  | ⟨0, _⟩ => show win1_1.index t (0 : Fin 2) * 4000 + 1 * p.val = P.val; omega
  | ⟨1, _⟩ => show win1_1.index t (1 : Fin 2) * 128 + 1 * k.val = k.val; omega

/-- The weight window's block is the whole pair of matrices, at every point. -/
theorem read1_2 (c : Dev nD) (t : Fin cfg1.N) (g : Fin 2) (k q : Fin 128) :
    iblk1 V c 2 t (ix3 g k q) = V c main_arg2 (ix3 g k q) := by
  show V c main_arg2 (((cfg1.win 2).blk t).view.emb (ix3 g k q)) = V c main_arg2 (ix3 g k q)
  refine congrArg _ (funext fun a => Fin.ext ?_)
  obtain ⟨-, -, -, -, e4, e5, e6, -⟩ := idx_facts1 t
  match a with
  | ⟨0, _⟩ => show win1_2.index t (0 : Fin 3) * 2 + 1 * g.val = g.val; omega
  | ⟨1, _⟩ => show win1_2.index t (1 : Fin 3) * 128 + 1 * k.val = k.val; omega
  | ⟨2, _⟩ => show win1_2.index t (2 : Fin 3) * 128 + 1 * q.val = q.val; omega

/-- What point `t` writes back is block `t` of the layer of the arrays the region finds. -/
theorem flushed1_eq (c : Dev nD) (t : Fin cfg1.N) :
    (dat1 V c).flushed 3 t
      = ((cfg1.win 3).blk t).view.read (Elt Ideal) (layer (V c main_v19) (V c main_v38) (V c main_arg2)) := by
  show (cfg1.win 3).cut (grid1.coords t) ((dat1 V c).after 3 t) = _
  rw [after1_3]
  unfold out1_3
  rw [View.canon_unit_zero hz2]
  simp only [View.ld_unit_zero (S := S4000x128) hz2, View.ld_unit_zero (S := S2x128x128) hz3]
  funext j
  obtain ⟨p, q, rfl⟩ : ∃ (p : Fin 4000) (q : Fin 128), j = ix2 p q := ⟨j 0, j 1, eq_ix2 j⟩
  have ht := point_lt1 t
  have hp : p.val < 4000 := p.isLt
  obtain ⟨-, -, -, -, -, -, -, e7, e8⟩ := idx_facts1 t
  have hemb : ((cfg1.win 3).blk t).view.emb (ix2 p q) = ix2 (⟨t.val * 4000 + p.val, by omega⟩ : Fin 100000) q := by
    funext a; apply Fin.ext
    match a with
    | ⟨0, _⟩ => show win1_3.index t (0 : Fin 2) * 4000 + 1 * p.val = t.val * 4000 + p.val; omega
    | ⟨1, _⟩ => show win1_3.index t (1 : Fin 2) * 128 + 1 * q.val = q.val; omega
  refine (pay1_apply (iblk1 V c 0 t) (iblk1 V c 1 t) (iblk1 V c 2 t) p q).trans ?_
  show _ = (layer (V c main_v19) (V c main_v38) (V c main_arg2)) (((cfg1.win 3).blk t).view.emb (ix2 p q))
  rw [hemb]
  unfold blockAt
  simp only [read1_0 V c t p _ ⟨t.val * 4000 + p.val, by omega⟩ rfl, read1_1 V c t p _ ⟨t.val * 4000 + p.val, by omega⟩ rfl, read1_2 V c t]
  rfl

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v39).slice (win1_3.rect t)).set ↔ _
  rw [View.set_slice_whole, Rect.mem_set_unit]
  exact Iff.rfl

/-- Row `r` of the array is written by point `r / 4000`: the 25 blocks of 4000 rows tile the 100000 rows. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 4000 < cfg1.N := by show (i 0).val / 4000 < grid1.N; rw [N_1]; omega
  refine ⟨⟨(i 0).val / 4000, hN⟩, flush1_3 _, ?_⟩
  rw [mem_blk1]
  obtain ⟨-, -, -, -, -, -, -, e7, e8⟩ := idx_facts1 ⟨(i 0).val / 4000, hN⟩
  have e7' : win1_3.index ⟨(i 0).val / 4000, hN⟩ (0 : Fin 2) = (i 0).val / 4000 := e7
  intro a
  match a with
  | ⟨0, _⟩ => show win1_3.index ⟨(i 0).val / 4000, hN⟩ (0 : Fin 2) * 4000 ≤ (i 0).val ∧ (i 0).val < win1_3.index ⟨(i 0).val / 4000, hN⟩ (0 : Fin 2) * 4000 + 4000; omega
  | ⟨1, _⟩ => show win1_3.index ⟨(i 0).val / 4000, hN⟩ (1 : Fin 2) * 128 ≤ (i 1).val ∧ (i 1).val < win1_3.index ⟨(i 0).val / 4000, hN⟩ (1 : Fin 2) * 128 + 128; omega

/-- The result array of region 1 after its 25 points: the layer of the arrays the region found. -/
theorem final1 (c : Dev nD) :
    (dat1 V c).arrAt 3 cfg1.N = layer (V c main_v19) (V c main_v38) (V c main_arg2) :=
  (dat1 V c).arrAt_eq_of_cover 3 _ (fun t _ => flushed1_eq V c t) cover1

end Cert.Sage.KernelSide

end
-- ==== Proof.KernelHost.lean ====
/-
  The host operations of the kernel's program, read as functions of the buffers they start from.

  Before each kernel region the program computes the neighbour mean of a feature array `h` along the edges
  `src → dst`: the rows `h[src]` are gathered (a negative index wrapped once by the number of nodes), summed into
  their destination rows, and each row is divided by its in-degree, the degree at least 1. The 25 operations are the
  same before both regions; `neighbourMean` names their composition once, and is never opened afterwards.
  Every statement is over arbitrary contents `W` of the buffers when the stretch of operations starts.
-/
import proofs.«178171_j40973988004535_1_alg».proof.Proof.Gen.KernelIdeal.Launch
import Idealize.ShloMosaic.Lib.StableHlo.Run

set_option maxRecDepth 16384

noncomputable section

namespace Cert.Sage.KernelSide

open Idealize.ShloMosaic Idealize.ShloMosaic.TcCoe Idealize.SL.Sem Idealize.ShloMosaic.StableHlo
open Cert.KernelIdeal Cert.KernelIdeal.Gen

variable {F : FTy → Type} [FloatOps F]

/-- The mean of the rows `h[src]` over the edges into each node (a node without incoming edge gets 0), as the
    kernel's program composes it from host operations. -/
def neighbourMean (h : (⟨S100000x128, .f32⟩ : BufTy).Contents (Elt F)) (s d : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

/-- The first stretch of host operations leaves the neighbour mean of the node features in the buffer the first
    region reads. -/
theorem hostOps0_mean (W : Valuation τ sig (Elt F)) :
    StableHlo.after hostOps0 W (Proc.devRef .tc main_v18)
      = neighbourMean (W (Proc.devRef .tc main_arg0)) (W (Proc.devRef .tc main_arg3)) (W (Proc.devRef .tc main_arg4)) := by
  after_results_simp <;> rfl

/-- The second stretch leaves the neighbour mean of the first region's result in the buffer the second region
    reads. -/
theorem hostOps1_mean (W : Valuation τ sig (Elt F)) :
    StableHlo.after hostOps1 W (Proc.devRef .tc main_v38)
      = neighbourMean (W (Proc.devRef .tc main_v19)) (W (Proc.devRef .tc main_arg3)) (W (Proc.devRef .tc main_arg4)) := by
  after_results_simp <;> rfl

/-- Neither stretch writes an argument of the program or the first region's result. -/
theorem hostOps0_keeps_arg0 (W : Valuation τ sig (Elt F)) :
    StableHlo.after hostOps0 W (Proc.devRef .tc main_arg0) = W (Proc.devRef .tc main_arg0) :=
  StableHlo.after_of_forall_not_mem _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))
theorem hostOps0_keeps_arg1 (W : Valuation τ sig (Elt F)) :
    StableHlo.after hostOps0 W (Proc.devRef .tc main_arg1) = W (Proc.devRef .tc main_arg1) :=
  StableHlo.after_of_forall_not_mem _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))
theorem hostOps0_keeps_arg2 (W : Valuation τ sig (Elt F)) :
    StableHlo.after hostOps0 W (Proc.devRef .tc main_arg2) = W (Proc.devRef .tc main_arg2) :=
  StableHlo.after_of_forall_not_mem _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))
theorem hostOps0_keeps_arg3 (W : Valuation τ sig (Elt F)) :
    StableHlo.after hostOps0 W (Proc.devRef .tc main_arg3) = W (Proc.devRef .tc main_arg3) :=
  StableHlo.after_of_forall_not_mem _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))
theorem hostOps0_keeps_arg4 (W : Valuation τ sig (Elt F)) :
    StableHlo.after hostOps0 W (Proc.devRef .tc main_arg4) = W (Proc.devRef .tc main_arg4) :=
  StableHlo.after_of_forall_not_mem _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (by decide)))
theorem hostOps1_keeps_v19 (W : Valuation τ sig (Elt F)) :
    StableHlo.after hostOps1 W (Proc.devRef .tc main_v19) = W (Proc.devRef .tc main_v19) :=
  StableHlo.after_of_forall_not_mem _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))
theorem hostOps1_keeps_arg2 (W : Valuation τ sig (Elt F)) :
    StableHlo.after hostOps1 W (Proc.devRef .tc main_arg2) = W (Proc.devRef .tc main_arg2) :=
  StableHlo.after_of_forall_not_mem _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))
theorem hostOps1_keeps_arg3 (W : Valuation τ sig (Elt F)) :
    StableHlo.after hostOps1 W (Proc.devRef .tc main_arg3) = W (Proc.devRef .tc main_arg3) :=
  StableHlo.after_of_forall_not_mem _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))
theorem hostOps1_keeps_arg4 (W : Valuation τ sig (Elt F)) :
    StableHlo.after hostOps1 W (Proc.devRef .tc main_arg4) = W (Proc.devRef .tc main_arg4) :=
  StableHlo.after_of_forall_not_mem _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))

end Cert.Sage.KernelSide

end
-- ==== Proof.KernelValue.lean ====
/-
  The kernel program's result as one function of its argument arrays.

  Following the buffers through the program: the first stretch of host operations leaves the neighbour mean of the
  node features `x`; the first region writes `H = relu (x · Win₀ + mean(x) · Win₁)`; the second stretch leaves the
  neighbour mean of `H` (the edge arrays are untouched); the second region writes `H · Wout₀ + mean(H) · Wout₁`.
-/
import proofs.«178171_j40973988004535_1_alg».proof.Proof.Gen.KernelIdeal.Frame
import proofs.«178171_j40973988004535_1_alg».proof.Proof.KernelBlocks
import proofs.«178171_j40973988004535_1_alg».proof.Proof.KernelHost
import proofs.«178171_j40973988004535_1_alg».proof.Proof.Spec

set_option maxRecDepth 16384

noncomputable section

namespace Cert.Sage.KernelSide

open Idealize.ShloMosaic Idealize.ShloMosaic.TcCoe Idealize.SL.Sem
open Cert.KernelIdeal Cert.KernelIdeal.Gen Cert.Sage

/-- Two GraphSAGE layers with mean aggregation over the edges `s → d`, the first rectified. -/
def sage (x : (⟨S100000x128, .f32⟩ : BufTy).Contents (Elt Ideal)) (Win Wout : (⟨S2x128x128, .f32⟩ : BufTy).Contents (Elt Ideal))
    (s d : (⟨S1600000, .i32⟩ : BufTy).Contents (Elt Ideal)) : (⟨S100000x128, .f32⟩ : BufTy).Contents (Elt Ideal) :=
  layer (relu (layer x (neighbourMean (F := Ideal) x s d) Win))
    (neighbourMean (F := Ideal) (relu (layer x (neighbourMean (F := Ideal) x s d) Win)) s d) Wout

variable (m : (ℓ : Loc nD τ sig) → Buf (Elt Ideal) ℓ) (ρ : Dev nD → PrngReg)

/-- The result buffer's contents at the end of the program. -/
theorem result_eq (c : Dev nD) :
    W4 m ρ c (Proc.devRef .tc main_v39)
      = sage (m ((c : Thread nD τ).loc main_arg0)) (m ((c : Thread nD τ).loc main_arg1)) (m ((c : Thread nD τ).loc main_arg2)) (m ((c : Thread nD τ).loc main_arg3)) (m ((c : Thread nD τ).loc main_arg4)) := by
  have e_x : V1 m ρ c main_arg0 = (m ((c : Thread nD τ).loc main_arg0)) := hostOps0_keeps_arg0 (W0 m ρ c)
  have e_w0 : V1 m ρ c main_arg1 = (m ((c : Thread nD τ).loc main_arg1)) := hostOps0_keeps_arg1 (W0 m ρ c)
  have e_n0 : V1 m ρ c main_v18 = neighbourMean (F := Ideal) (m ((c : Thread nD τ).loc main_arg0)) (m ((c : Thread nD τ).loc main_arg3)) (m ((c : Thread nD τ).loc main_arg4)) :=
    hostOps0_mean (W0 m ρ c)
  have e_h : W2 m ρ c (Proc.devRef .tc main_v19)
      = relu (layer (m ((c : Thread nD τ).loc main_arg0)) (neighbourMean (F := Ideal) (m ((c : Thread nD τ).loc main_arg0)) (m ((c : Thread nD τ).loc main_arg3)) (m ((c : Thread nD τ).loc main_arg4))) (m ((c : Thread nD τ).loc main_arg1))) :=
    (W2_arr m ρ c 3).trans ((final0 (V1 m ρ) c).trans (by rw [e_x, e_w0, e_n0]))
  have e_s : W2 m ρ c (Proc.devRef .tc main_arg3) = (m ((c : Thread nD τ).loc main_arg3)) :=
    (W2_of_ne m ρ c main_arg3 (by decide)).trans (hostOps0_keeps_arg3 (W0 m ρ c))
  have e_d : W2 m ρ c (Proc.devRef .tc main_arg4) = (m ((c : Thread nD τ).loc main_arg4)) :=
    (W2_of_ne m ρ c main_arg4 (by decide)).trans (hostOps0_keeps_arg4 (W0 m ρ c))
  have e_w : W2 m ρ c (Proc.devRef .tc main_arg2) = (m ((c : Thread nD τ).loc main_arg2)) :=
    (W2_of_ne m ρ c main_arg2 (by decide)).trans (hostOps0_keeps_arg2 (W0 m ρ c))
  have e_h3 : V3 m ρ c main_v19 = _ := (hostOps1_keeps_v19 (W2 m ρ c)).trans e_h
  have e_w3 : V3 m ρ c main_arg2 = _ := (hostOps1_keeps_arg2 (W2 m ρ c)).trans e_w
  have e_n3 : V3 m ρ c main_v38 = _ := (hostOps1_mean (W2 m ρ c)).trans (by rw [e_h, e_s, e_d])
  exact (W4_arr m ρ c 3).trans ((final1 (V3 m ρ) c).trans (by rw [e_h3, e_w3, e_n3]; rfl))

end Cert.Sage.KernelSide

end
-- ==== Proof.RefValue.lean ====
/-
  The reference program's result as the same two layers.

  The reference computes each layer on the host: the pair of weight matrices is split by slicing, each half multiplies
  its operand by a `dot_general`, and the two products are added; the first layer is rectified by a maximum with a
  broadcast zero. Over the extended reals a `dot_general` of a `[100000, 128]` by a `[128, 128]` matrix is the plain
  contraction over the 128 features, so a host layer is the layer of the specification, entry by entry. The neighbour
  mean is carried as one unopened function of its three operands.
-/
import proofs.«178171_j40973988004535_1_alg».proof.Proof.Gen.ReferenceIdeal.Run
import proofs.«178171_j40973988004535_1_alg».proof.Proof.LibPlainProduct
import proofs.«178171_j40973988004535_1_alg».proof.Proof.LibStackPlane
import proofs.«178171_j40973988004535_1_alg».proof.Proof.Spec
import Idealize.ShloMosaic.PureOps.Ideal.Laws

set_option maxRecDepth 16384

noncomputable section

namespace Cert.Sage.RefSide

open Idealize.ShloMosaic Idealize.ShloMosaic.TcCoe Idealize.ShloMosaic.ValueIdx Idealize.SL.Sem
open Cert.ReferenceIdeal Cert.ReferenceIdeal.Gen Cert.Sage

section Spelling
variable {F : FTy → Type} [FloatOps F]

/-- The mean of the rows `h[src]` over the edges into each node, as the reference composes it from host operations. -/
def neighbourMean (h : (⟨S100000x128, .f32⟩ : BufTy).Contents (Elt F)) (s d : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

/-- One layer as the reference spells it: `a · W[0] + n · W[1]` by two host products. -/
def hostLayer (a n : (⟨S100000x128, .f32⟩ : BufTy).Contents (Elt F)) (W : (⟨S2x128x128, .f32⟩ : BufTy).Contents (Elt F)) :
    (⟨S100000x128, .f32⟩ : BufTy).Contents (Elt F) :=
  addf
    (Host.dotGeneral dot_S100000x128_S128x128_S100000x128_1_0_0_1_n_n none a
      (shapeCast S128x128 (extractStridedSlice S1x128x128 ![0, 0, 0] W slices_S2x128x128_S1x128x128_0_0_0) shapeCasts_S1x128x128_S128x128))
    (Host.dotGeneral dot_S100000x128_S128x128_S100000x128_1_0_0_1_n_n none n
      (shapeCast S128x128 (extractStridedSlice S1x128x128 ![1, 0, 0] W slices_S2x128x128_S1x128x128_1_0_0) shapeCasts_S1x128x128_S128x128))

/-- The rectifier as the reference spells it: the maximum with a broadcast zero. -/
def hostRelu (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

end Spelling

/-- A host layer is the specification's layer: each product is the contraction over the 128 features against the
    weight matrix of its number. -/
theorem hostLayer_eq (a n : (⟨S100000x128, .f32⟩ : BufTy).Contents (Elt Ideal)) (W : (⟨S2x128x128, .f32⟩ : BufTy).Contents (Elt Ideal)) :
    hostLayer (F := Ideal) a n W = layer a n W := by
  funext i
  obtain ⟨p, q, rfl⟩ : ∃ (p : Fin 100000) (q : Fin 128), i = ix2 p q := ⟨i 0, i 1, eq_ix2 i⟩
  rw [layer_ix2]
  unfold hostLayer layerAt
  refine congrArg₂ (· + ·) ?_ ?_
  · refine (Cert.PlainProduct.dotGeneral_plain_apply' _ rfl none a _ p q).trans (Finset.sum_congr rfl fun k _ => ?_)
    rw [Cert.StackPlane.plane_apply 0 (by decide) W slices_S2x128x128_S1x128x128_0_0_0 shapeCasts_S1x128x128_S128x128 k q]
    rfl
  · refine (Cert.PlainProduct.dotGeneral_plain_apply' _ rfl none n _ p q).trans (Finset.sum_congr rfl fun k _ => ?_)
    rw [Cert.StackPlane.plane_apply 1 (by decide) W slices_S2x128x128_S1x128x128_1_0_0 shapeCasts_S1x128x128_S128x128 k q]
    rfl

/-- The host's rectifier is `max(·, 0)`: the broadcast constant is the zero word. -/
theorem hostRelu_eq (h : (⟨S100000x128, .f32⟩ : BufTy).Contents (Elt Ideal)) : hostRelu (F := Ideal) h = relu h := by
  funext i
  show max (h i) (Ideal.ofBits .f32 0x00000000#32) = max (h i) 0
  rw [Ideal.ofBits_zero_f32]

/-- The reference's two layers, in its own spelling. -/
def sageHost (x : (⟨S100000x128, .f32⟩ : BufTy).Contents (Elt Ideal)) (Win Wout : (⟨S2x128x128, .f32⟩ : BufTy).Contents (Elt Ideal))
    (s d : (⟨S1600000, .i32⟩ : BufTy).Contents (Elt Ideal)) : (⟨S100000x128, .f32⟩ : BufTy).Contents (Elt Ideal) :=
  hostLayer (F := Ideal) (hostRelu (F := Ideal) (hostLayer (F := Ideal) x (neighbourMean (F := Ideal) x s d) Win))
    (neighbourMean (F := Ideal) (hostRelu (F := Ideal) (hostLayer (F := Ideal) x (neighbourMean (F := Ideal) x s d) Win)) s d) Wout

/-- The composed term of the reference's run is those two layers of its arguments. -/
theorem res_eq_sageHost (m : (ℓ : Loc nD τ sig) → Buf (Elt Ideal) ℓ) (c : Dev nD) :
    Cert.ReferenceIdeal.Value.res_main_v52 (F := Ideal) m c
      = sageHost (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v52 sageHost hostLayer hostRelu neighbourMean
  rfl

/-- The same in the specification's words. -/
theorem sageHost_eq (x : (⟨S100000x128, .f32⟩ : BufTy).Contents (Elt Ideal)) (Win Wout : (⟨S2x128x128, .f32⟩ : BufTy).Contents (Elt Ideal))
    (s d : (⟨S1600000, .i32⟩ : BufTy).Contents (Elt Ideal)) :
    sageHost x Win Wout s d
      = layer (relu (layer x (neighbourMean (F := Ideal) x s d) Win))
          (neighbourMean (F := Ideal) (relu (layer x (neighbourMean (F := Ideal) x s d) Win)) s d) Wout := by
  unfold sageHost
  rw [hostLayer_eq x, hostRelu_eq, hostLayer_eq]

end Cert.Sage.RefSide

end
-- ==== Proof.Bridge.lean ====
/-
  The two programs compute one function.

  Both programs compose the neighbour mean from the same host operations, so the kernel program's and the reference's
  spellings of it are one function; with the host layers read as the specification's layers, the reference's composed
  result is the kernel program's two-layer function of the same arguments.
-/
import proofs.«178171_j40973988004535_1_alg».proof.Proof.KernelValue
import proofs.«178171_j40973988004535_1_alg».proof.Proof.RefValue

set_option maxRecDepth 16384

noncomputable section

namespace Cert.Sage

open Idealize.ShloMosaic Idealize.ShloMosaic.TcCoe Idealize.SL.Sem

/-- The neighbour mean is spelt with the same operations in both programs. -/
theorem mean_eq (h : (⟨Cert.ReferenceIdeal.S100000x128, .f32⟩ : BufTy).Contents (Elt Ideal))
    (s d : (⟨Cert.ReferenceIdeal.S1600000, .i32⟩ : BufTy).Contents (Elt Ideal)) :
    RefSide.neighbourMean (F := Ideal) h s d = KernelSide.neighbourMean (F := Ideal) h s d := rfl

/-- The reference's two layers are the kernel program's function. -/
theorem sageHost_eq_sage (x : (⟨Cert.ReferenceIdeal.S100000x128, .f32⟩ : BufTy).Contents (Elt Ideal))
    (Win Wout : (⟨Cert.ReferenceIdeal.S2x128x128, .f32⟩ : BufTy).Contents (Elt Ideal))
    (s d : (⟨Cert.ReferenceIdeal.S1600000, .i32⟩ : BufTy).Contents (Elt Ideal)) :
    RefSide.sageHost x Win Wout s d = KernelSide.sage x Win Wout s d := by
  rw [RefSide.sageHost_eq]
  simp only [mean_eq]
  rfl

end Cert.Sage

end
-- ==== Proof.lean ====
/-
  Two GraphSAGE layers with mean aggregation: the tiled kernel program against the plain reference.

  With `x : [100000, 128]` the node features, `Win, Wout : [2, 128, 128]` two pairs of weight matrices and
  `src, dst : [1600000]` the edges, both programs compute

      H   = max (x · Win₀ + mean(x) · Win₁, 0)
      out = H · Wout₀ + mean(H) · Wout₁

  where `mean(h)` is the mean of the rows `h[src]` over the edges into each node. The neighbour mean is composed from
  the same host operations in both programs and is carried as one unopened function. The kernel program computes each
  layer in 25 blocks of 4000 rows, each block by two matrix products accumulated into zero with operands rounded to
  bf16; the reference computes it by two whole-array products. Over the extended reals rounding is the identity and
  both products are the plain contraction over the 128 features, and a block of rows of the layer depends only on the
  same rows of the operands, so the blocks assemble to the whole-array layer. No law of arithmetic beyond `0 + s = s`
  is used, so the inputs' finiteness is never needed.
-/
import proofs.«178171_j40973988004535_1_alg».proof.Defs
import proofs.«178171_j40973988004535_1_alg».proof.Proof.Gen.Kernel
import proofs.«178171_j40973988004535_1_alg».proof.Proof.Gen.Kernel.Skeleton
import proofs.«178171_j40973988004535_1_alg».proof.Proof.Gen.Kernel.Launch
import proofs.«178171_j40973988004535_1_alg».proof.Proof.Gen.Kernel.Points
import proofs.«178171_j40973988004535_1_alg».proof.Proof.Gen.Kernel.Frame
import proofs.«178171_j40973988004535_1_alg».proof.Proof.Gen.KernelIdeal
import proofs.«178171_j40973988004535_1_alg».proof.Proof.Gen.KernelIdeal.Skeleton
import proofs.«178171_j40973988004535_1_alg».proof.Proof.Gen.KernelIdeal.Launch
import proofs.«178171_j40973988004535_1_alg».proof.Proof.Gen.KernelIdeal.Points
import proofs.«178171_j40973988004535_1_alg».proof.Proof.Gen.KernelIdeal.Frame
import proofs.«178171_j40973988004535_1_alg».proof.Proof.Gen.ReferenceIdeal
import proofs.«178171_j40973988004535_1_alg».proof.Proof.Gen.Pre_finite_inputs
import proofs.«178171_j40973988004535_1_alg».proof.Proof.Gen.ReferenceIdeal.Run
import proofs.«178171_j40973988004535_1_alg».proof.Proof.KernelRun
import proofs.«178171_j40973988004535_1_alg».proof.Proof.Bridge
import Idealize.ShloMosaic.Adequacy
import Idealize.ShloMosaic.Init

noncomputable section

namespace Cert.Proof

open Idealize.ShloMosaic Idealize.SL.Sem

/-- Each kernel program runs and leaves its arguments as launched (the generated frames). -/
theorem frame_kernel : Cert.frame_Kernel := fun m ρ _ => Cert.Kernel.Gen.frame m ρ
theorem frame_kernelIdeal : Cert.frame_KernelIdeal := fun m ρ _ => Cert.KernelIdeal.Gen.frame m ρ
/-- The reference runs and leaves its arguments as launched: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no rewrite to account for. -/
theorem preserves : Cert.preserves_Kernel_KernelIdeal := trivial

/-- From arguments that agree both programs end with the two-layer function of those arguments in their result
    buffers. -/
theorem algebraic : Cert.algebraic_KernelIdeal_ReferenceIdeal := by
  intro m ρ m' ρ' _ hagree
  refine ⟨fun c => Cert.Sage.KernelSide.sage (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Sage.KernelSide.result_eq m ρ c), (h c).2⟩)
      (Cert.KernelIdeal.GenP.frame_result m ρ)
  · refine (θ_run Cert.ReferenceIdeal.defs _ _).mono (fun _ h c => ⟨(h c).1.trans ?_, (h c).2⟩)
      (Cert.ReferenceIdeal.Value.run (F := Ideal) m' ρ')
    rw [Cert.Sage.RefSide.res_eq_sageHost, Cert.Sage.sageHost_eq_sage, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
